-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S128x2 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 69
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S1x2, .f32⟩
  | .hbm, ⟨68, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x2.size a ≤ S128x2.size a
  hwx1_5 : ∀ i : grid1.Coords, EltTy.bits .f32 = 32 ∨ (Rect.block (s := S128x2) S128x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x2 : Shape := ⟨2, ![100000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x2, .f32⟩
  | .hbm, ⟨83, _⟩ => ⟨S1x2, .f32⟩
  | .hbm, ⟨84, _⟩ => ⟨S100000x2, .f32⟩
  | .hbm, ⟨85, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Layers.lean ====
/-
  The network both programs compute, on the extended reals.

  Nodes carry 128 features; `A` is a node-feature array already averaged over each node's incoming
  edges and `X` the nodes' own features.  One convolution layer sends them to

      conv A X Wl Wr b (r, q) = max ( (Σ_k A(r,k)·Wl(k,q) + Σ_k X(r,k)·Wr(k,q)) + b(q) , 0 ),

  and the linear head sends hidden features `H` to  head H W b (r, q) = Σ_k H(r,k)·W(k,q) + b(q).
  The whole network, for an aggregation `agg` of node features along the edges, is

      net agg x … = head (conv (agg h) h W2l W2r b2) Wlin blin,   h = conv (agg x) x W1l W1r b1.

  Sums and products are the extended reals' own; the grouping of the two sums and of the bias is the one
  both programs use, so no law of arithmetic is needed to compare them, and no input has to be finite.
  The zero of the rectifier is kept as the f32 word 0x00000000 that both programs print.
-/
import Idealize.ShloMosaic.PureOps.Ideal
import Idealize.ShloMosaic.Lib.ValueIdx

noncomputable section

namespace Cert.Sage

open Idealize.ShloMosaic Idealize.ShloMosaic.ValueIdx
open scoped BigOperators

/-- Node features: 100000 nodes by 128 channels. -/
abbrev Feat : Shape := ⟨2, ![100000, 128]⟩
/-- A square weight matrix on the channels. -/
abbrev Sq : Shape := ⟨2, ![128, 128]⟩
/-- The head's weight matrix: 128 channels to 2 classes. -/
abbrev HeadW : Shape := ⟨2, ![128, 2]⟩
/-- The logits: 100000 nodes by 2 classes. -/
abbrev Logit : Shape := ⟨2, ![100000, 2]⟩

/-- One convolution layer at node `r` and channel `q`. -/
def convAt (A X : Feat.Idx → EReal) (Wl Wr : Sq.Idx → EReal) (b : Fin 128 → EReal) (r : Fin 100000) (q : Fin 128) : EReal :=
  max (((∑ k : Fin 128, A (ix2 r k) * Wl (ix2 k q)) + (∑ k : Fin 128, X (ix2 r k) * Wr (ix2 k q))) + b q)
    (Ideal.ofBits .f32 0x00000000#32)

/-- One convolution layer, as an array. -/
def conv (A X : Feat.Idx → EReal) (Wl Wr : Sq.Idx → EReal) (b : Fin 128 → EReal) : Feat.Idx → EReal :=
  fun i => convAt A X Wl Wr b ⟨(i 0).val, idx2_lt0 i⟩ ⟨(i 1).val, idx2_lt1 i⟩

/-- The linear head at node `r` and class `q`. -/
def headAt (H : Feat.Idx → EReal) (W : HeadW.Idx → EReal) (b : Fin 2 → EReal) (r : Fin 100000) (q : Fin 2) : EReal :=
  (∑ k : Fin 128, H (ix2 r k) * W (ix2 k q)) + b q

/-- The linear head, as an array. -/
def head (H : Feat.Idx → EReal) (W : HeadW.Idx → EReal) (b : Fin 2 → EReal) : Logit.Idx → EReal :=
  fun i => headAt H W b ⟨(i 0).val, idx2_lt0 i⟩ ⟨(i 1).val, idx2_lt1 i⟩

/-- `conv` at an index whose coordinates are `r` and `q`. -/
theorem conv_eq_at (A X : Feat.Idx → EReal) (Wl Wr : Sq.Idx → EReal) (b : Fin 128 → EReal) (i : Feat.Idx)
    (r : Fin 100000) (q : Fin 128) (hr : (i 0).val = r.val) (hq : (i 1).val = q.val) :
    conv A X Wl Wr b i = convAt A X Wl Wr b r q := by
  show convAt A X Wl Wr b ⟨(i 0).val, idx2_lt0 i⟩ ⟨(i 1).val, idx2_lt1 i⟩ = _
  rw [show (⟨(i 0).val, idx2_lt0 i⟩ : Fin 100000) = r from Fin.ext hr, show (⟨(i 1).val, idx2_lt1 i⟩ : Fin 128) = q from Fin.ext hq]

/-- `head` at an index whose coordinates are `r` and `q`. -/
theorem head_eq_at (H : Feat.Idx → EReal) (W : HeadW.Idx → EReal) (b : Fin 2 → EReal) (i : Logit.Idx)
    (r : Fin 100000) (q : Fin 2) (hr : (i 0).val = r.val) (hq : (i 1).val = q.val) :
    head H W b i = headAt H W b r q := by
  show headAt H W b ⟨(i 0).val, idx2_lt0 i⟩ ⟨(i 1).val, idx2_lt1 i⟩ = _
  rw [show (⟨(i 0).val, idx2_lt0 i⟩ : Fin 100000) = r from Fin.ext hr, show (⟨(i 1).val, idx2_lt1 i⟩ : Fin 2) = q from Fin.ext hq]

/-- Two convolution layers and the head, for an aggregation `agg` of node features along the edges. -/
def net (agg : (Feat.Idx → EReal) → (Feat.Idx → EReal)) (x : Feat.Idx → EReal)
    (W1l : Sq.Idx → EReal) (b1 : Fin 128 → EReal) (W1r W2l : Sq.Idx → EReal) (b2 : Fin 128 → EReal) (W2r : Sq.Idx → EReal)
    (Wlin : HeadW.Idx → EReal) (blin : Fin 2 → EReal) : Logit.Idx → EReal :=
  head (conv (agg (conv (agg x) x W1l W1r b1)) (conv (agg x) x W1l W1r b1) W2l W2r b2) Wlin blin

end Cert.Sage

end
-- ==== Proof.Aggregate.lean ====
/-
  Averaging node features over incoming edges, as both programs do it on the host.

  From the edge list (row 0 the sources, row 1 the targets; a negative source is taken modulo the
  number of nodes) the feature rows of the sources are gathered, added up at their targets, and each
  node's sum is divided by its number of incoming edges, or by one for a node with none.  Both programs
  apply exactly this chain of host operations, so it is carried as ONE function of the features and the
  edge list and never opened: which rows an edge list selects plays no part in the comparison.
-/
import proofs.«157874_j14465449853061_1_alg».proof.Proof.Gen.ReferenceIdeal.Read

noncomputable section

namespace Cert.Sage

open Idealize.ShloMosaic

/-- The mean of a node-feature array over each node's incoming edges: the reference program's own
    chain of host operations, as one function. -/
def meanAgg (e : (⟨Cert.ReferenceIdeal.S2x1600000, .i32⟩ : BufTy).Contents (Elt Ideal))
    (f : (⟨Cert.ReferenceIdeal.S100000x128, .f32⟩ : BufTy).Contents (Elt Ideal)) :
    (⟨Cert.ReferenceIdeal.S100000x128, .f32⟩ : BufTy).Contents (Elt Ideal) :=
  Cert.ReferenceIdeal.Read.val_main_v22 (F := Ideal) f e

end Cert.Sage

end
-- ==== Proof.RefNet.lean ====
/-
  The reference program computes the network.

  Read one operation at a time, the reference's result at an index is: a sum over the 128 channels for
  each matrix product, the two sums of a layer added, the bias row added, the maximum with zero taken;
  the second layer's aggregated input is the same chain of host operations applied to the first
  layer's output; the head is one more sum plus its bias.  Each index function the operations compose is
  a pair of coordinates, so term by term this is the specification's `conv`, `conv` and `head`.
-/
import proofs.«157874_j14465449853061_1_alg».proof.Proof.Gen.ReferenceIdeal.Read
import proofs.«157874_j14465449853061_1_alg».proof.Proof.Layers
import proofs.«157874_j14465449853061_1_alg».proof.Proof.Aggregate

set_option maxRecDepth 16384

noncomputable section

namespace Cert.ReferenceIdeal.Net

open Cert.ReferenceIdeal Cert.ReferenceIdeal.Read Cert.Sage
open Idealize.ShloMosaic Idealize.ShloMosaic.ValueIdx
open scoped BigOperators

/-- The first layer's output is `conv` of the aggregated input features and the input features. -/
theorem layer1 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v29 (F := Ideal) x0 x1 x2 x3 x4 = conv (meanAgg x1 x0) x0 x2 x4 (fun q => x3 (ix1 q)) := by
  funext i
  rw [val_main_v29_apply, val_main_v28_apply, val_main_v25_apply, val_main_v23_apply, val_main_v24_apply,
    val_main_v27_apply, val_main_v26_apply, val_main_call0_v0_apply, val_main_call0_cst_apply]
  have el1 : ∀ k : Fin 128, lidx_main_v23 i k = ix2 ⟨(i 0).val, idx2_lt0 i⟩ k := fun k =>
    funext fun a => Fin.ext (by match a with | ⟨0, _⟩ => rfl | ⟨1, _⟩ => rfl)
  have er1 : ∀ k : Fin 128, ridx_main_v23 i k = ix2 k ⟨(i 1).val, idx2_lt1 i⟩ := fun k =>
    funext fun a => Fin.ext (by match a with | ⟨0, _⟩ => rfl | ⟨1, _⟩ => rfl)
  have el2 : ∀ k : Fin 128, lidx_main_v24 i k = ix2 ⟨(i 0).val, idx2_lt0 i⟩ k := fun k =>
    funext fun a => Fin.ext (by match a with | ⟨0, _⟩ => rfl | ⟨1, _⟩ => rfl)
  have er2 : ∀ k : Fin 128, ridx_main_v24 i k = ix2 k ⟨(i 1).val, idx2_lt1 i⟩ := fun k =>
    funext fun a => Fin.ext (by match a with | ⟨0, _⟩ => rfl | ⟨1, _⟩ => rfl)
  have eb : idx_main_v26 (idx_main_v27 i) = ix1 ⟨(i 1).val, idx2_lt1 i⟩ :=
    funext fun a => Fin.ext (by match a with | ⟨0, _⟩ => rfl)
  simp only [el1, er1, el2, er2, eb]
  rfl

/-- The second layer's aggregated input: the same host chain, applied to the first layer's output. -/
theorem agg2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v48 (F := Ideal) x0 x1 x2 x3 x4 = meanAgg x1 (val_main_v29 (F := Ideal) x0 x1 x2 x3 x4) := rfl

/-- The second layer's output is `conv` of its aggregated input and the first layer's output. -/
theorem layer2 (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v55 (F := Ideal) x0 x1 x2 x3 x4 x5 x6 x7
      = conv (val_main_v48 (F := Ideal) x0 x1 x2 x3 x4) (val_main_v29 (F := Ideal) x0 x1 x2 x3 x4) x5 x7 (fun q => x6 (ix1 q)) := by
  funext i
  rw [val_main_v55_apply, val_main_v54_apply, val_main_v51_apply, val_main_v49_apply, val_main_v50_apply,
    val_main_v53_apply, val_main_v52_apply, val_main_call1_v0_apply, val_main_call1_cst_apply]
  have el1 : ∀ k : Fin 128, lidx_main_v49 i k = ix2 ⟨(i 0).val, idx2_lt0 i⟩ k := fun k =>
    funext fun a => Fin.ext (by match a with | ⟨0, _⟩ => rfl | ⟨1, _⟩ => rfl)
  have er1 : ∀ k : Fin 128, ridx_main_v49 i k = ix2 k ⟨(i 1).val, idx2_lt1 i⟩ := fun k =>
    funext fun a => Fin.ext (by match a with | ⟨0, _⟩ => rfl | ⟨1, _⟩ => rfl)
  have el2 : ∀ k : Fin 128, lidx_main_v50 i k = ix2 ⟨(i 0).val, idx2_lt0 i⟩ k := fun k =>
    funext fun a => Fin.ext (by match a with | ⟨0, _⟩ => rfl | ⟨1, _⟩ => rfl)
  have er2 : ∀ k : Fin 128, ridx_main_v50 i k = ix2 k ⟨(i 1).val, idx2_lt1 i⟩ := fun k =>
    funext fun a => Fin.ext (by match a with | ⟨0, _⟩ => rfl | ⟨1, _⟩ => rfl)
  have eb : idx_main_v52 (idx_main_v53 i) = ix1 ⟨(i 1).val, idx2_lt1 i⟩ :=
    funext fun a => Fin.ext (by match a with | ⟨0, _⟩ => rfl)
  simp only [el1, er1, el2, er2, eb]
  rfl

/-- THE REFERENCE'S RESULT is the network of its arguments: the features, the edge list, and the
    weights and biases of the two layers and the head. -/
theorem result (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x2, .f32⟩ : BufTy).Contents (Elt Ideal))
    (x9 : (⟨S2, .f32⟩ : BufTy).Contents (Elt Ideal)) :
    val_main_v59 (F := Ideal) x0 x1 x2 x3 x4 x5 x6 x7 x8 x9
      = net (meanAgg x1) x0 x2 (fun q => x3 (ix1 q)) x4 x5 (fun q => x6 (ix1 q)) x7 x8 (fun q => x9 (ix1 q)) := by
  funext i
  rw [val_main_v59_apply, val_main_v56_apply, val_main_v58_apply, val_main_v57_apply, layer2, agg2, layer1]
  have el : ∀ k : Fin 128, lidx_main_v56 i k = ix2 ⟨(i 0).val, idx2_lt0 i⟩ k := fun k =>
    funext fun a => Fin.ext (by match a with | ⟨0, _⟩ => rfl | ⟨1, _⟩ => rfl)
  have er : ∀ k : Fin 128, ridx_main_v56 i k = ix2 k ⟨(i 1).val, idx2_lt1 i⟩ := fun k =>
    funext fun a => Fin.ext (by match a with | ⟨0, _⟩ => rfl | ⟨1, _⟩ => rfl)
  have eb : idx_main_v57 (idx_main_v58 i) = ix1 ⟨(i 1).val, idx2_lt1 i⟩ :=
    funext fun a => Fin.ext (by match a with | ⟨0, _⟩ => rfl)
  simp only [el, er, eb]
  rfl

end Cert.ReferenceIdeal.Net

end
-- ==== Proof.WholeRun.lean ====
/-
  The kernel program's run, with every buffer named.

  The program is two kernel regions among two stretches of host operations.  Write W₀ for the launch
  memory, W₁ for W₀ after the first host stretch, W₂ for W₁ with the first region's arrays replaced by what
  its grid leaves in them, W₃ for W₂ after the second host stretch and W₄ for W₃ with the second region's
  arrays replaced likewise.  Every weakly fair execution terminates, and in every final memory each
  buffer that outlives the regions holds its W₄ contents.  The frame claim keeps of this only the ten
  argument buffers; a value claim needs the result buffer as well, so the post is left general here.
-/
import proofs.«157874_j14465449853061_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every buffer that outlives
    the regions ends at its contents after the last region (W₄). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Whole

end
-- ==== Proof.Layer1Body.lean ====
/-
  What the first kernel writes at one element of its block.

  On a block of 5000 rows the kernel multiplies the aggregated rows by Wl and the rows themselves by
  Wr — each product accumulated from zero, so at row p and channel q it is the plain sum over the 128
  channels —, adds the two, adds the bias row (one row, repeated down the block), and takes the maximum
  with zero.  Rounding the operands to a shorter float format is the identity on the extended reals.
-/
import proofs.«157874_j14465449853061_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.Layer1

open Cert.KernelIdeal Cert.KernelIdeal.Gen
open Idealize.ShloMosaic Idealize.ShloMosaic.ValueIdx
open scoped BigOperators

/-! ## The 5000×128 by 128×128 product: which elements meet -/

theorem lhs_row (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
theorem rhs_row (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
theorem rhs_col (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A block times a square matrix, accumulated from zero, at row `p` and channel `q`: row `p` of the
    block against column `q` of the matrix. -/
theorem product_at (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The bias row repeated down the block: at row `p`, channel `q`, it is the row's entry `q`. -/
theorem bias_at (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- THE FIRST KERNEL'S STORED VALUE at row `p` and channel `q` of its block, from the blocks it loads:
    the aggregated rows `xa`, the rows `xs`, the two matrices and the bias row. -/
theorem stored_at (xa xs : FVec Ideal S5000x128 .f32) (wl wr : FVec Ideal S128x128 .f32) (b : FVec Ideal S1x128 .f32)
    (p : Fin 5000) (q : Fin 128) :
    k0_pay1 (F := Ideal) xa xs wl wr b (ix2 p q)
      = max (((∑ k : Fin 128, xa (ix2 p k) * wl (ix2 k q)) + (∑ k : Fin 128, xs (ix2 p k) * wr (ix2 k q))) + b (ix2 (0 : Fin 1) q))
          (Ideal.ofBits .f32 0x00000000#32) := by
  unfold k0_pay1
  rw [maximumf_apply, addf_apply, addf_apply, product_at, product_at, bias_at, shapeCast_self, shapeCast_self]
  rfl

end Cert.KernelIdeal.Layer1

end
-- ==== Proof.Layer1Array.lean ====
/-
  The first kernel's output array is one convolution layer of the arrays it is launched on.

  The grid has 20 points; point t works on rows 5000·t … 5000·t+4999 of the aggregated features and
  of the features (the two row-blocked inputs) and of the output, and on the whole of the two weight
  matrices and the bias row at every point.  So an element the kernel reads at row p of a row-blocked
  input is the array's element at row 5000·t+p, and what point t writes back is block t of ONE array,
  `conv` of the five input arrays.  The 20 blocks tile the 100000 rows (row r lies in block r / 5000),
  so after the grid the output array is that `conv`.
-/
import proofs.«157874_j14465449853061_1_alg».proof.Proof.Gen.KernelIdeal.Frame
import proofs.«157874_j14465449853061_1_alg».proof.Proof.Layers
import proofs.«157874_j14465449853061_1_alg».proof.Proof.Layer1Body

set_option maxRecDepth 16384

noncomputable section

namespace Cert.KernelIdeal.Layer1

open Cert.KernelIdeal Cert.KernelIdeal.Gen Cert.Sage
open Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

theorem zero_corner : (![0, 0] : Fin 2 → Nat) = fun _ => 0 := funext fun a => by fin_cases a <;> rfl

/-- The index maps over the grid: the row-blocked windows (aggregated features, features, output) are at
    block t at point t, the other three at their only block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## What each loaded block holds -/

/-- Row p of the aggregated-features block at point t is row 5000·t+p of the array. -/
theorem read_agg (c : Dev nD) (t : Fin cfg0.N) (p : Fin 5000) (k : Fin 128) (ht : t.val < 20)
    (e0 : win0_0.index t (0 : Fin 2) = t.val) (e1 : win0_0.index t (1 : Fin 2) = 0) :
    iblk0 V c 0 t (ix2 p k) = V c main_v22 (ix2 (⟨t.val * 5000 + p.val, by have := p.isLt; omega⟩ : Fin 100000) k) := by
  show V c main_v22 (((cfg0.win 0).blk t).view.emb (ix2 p k)) = _
  refine congrArg (V c main_v22) (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- Row p of the features block at point t is row 5000·t+p of the array. -/
theorem read_feat (c : Dev nD) (t : Fin cfg0.N) (p : Fin 5000) (k : Fin 128) (ht : t.val < 20)
    (e0 : win0_1.index t (0 : Fin 2) = t.val) (e1 : win0_1.index t (1 : Fin 2) = 0) :
    iblk0 V c 1 t (ix2 p k) = V c main_arg0 (ix2 (⟨t.val * 5000 + p.val, by have := p.isLt; omega⟩ : Fin 100000) k) := by
  show V c main_arg0 (((cfg0.win 1).blk t).view.emb (ix2 p k)) = _
  refine congrArg (V c main_arg0) (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The first weight matrix is loaded whole at every point. -/
theorem read_wl (c : Dev nD) (t : Fin cfg0.N) (p : Fin 128) (k : Fin 128)
    (e0 : win0_2.index t (0 : Fin 2) = 0) (e1 : win0_2.index t (1 : Fin 2) = 0) :
    iblk0 V c 2 t (ix2 p k) = V c main_arg2 (ix2 p k) := by
  show V c main_arg2 (((cfg0.win 2).blk t).view.emb (ix2 p k)) = _
  refine congrArg (V c main_arg2) (funext fun a => Fin.ext ?_)
  match a with
  | ⟨0, _⟩ => show win0_2.index t (0 : Fin 2) * 128 + 1 * p.val = p.val; omega
  | ⟨1, _⟩ => show win0_2.index t (1 : Fin 2) * 128 + 1 * k.val = k.val; omega

/-- The bias row is loaded whole at every point. -/
theorem read_bias (c : Dev nD) (t : Fin cfg0.N) (p : Fin 1) (k : Fin 128)
    (e0 : win0_3.index t (0 : Fin 2) = 0) (e1 : win0_3.index t (1 : Fin 2) = 0) :
    iblk0 V c 3 t (ix2 p k) = V c main_v23 (ix2 p k) := by
  show V c main_v23 (((cfg0.win 3).blk t).view.emb (ix2 p k)) = _
  refine congrArg (V c main_v23) (funext fun a => Fin.ext ?_)
  match a with
  | ⟨0, _⟩ => show win0_3.index t (0 : Fin 2) * 1 + 1 * p.val = p.val; omega
  | ⟨1, _⟩ => show win0_3.index t (1 : Fin 2) * 128 + 1 * k.val = k.val; omega

/-- The second weight matrix is loaded whole at every point. -/
theorem read_wr (c : Dev nD) (t : Fin cfg0.N) (p : Fin 128) (k : Fin 128)
    (e0 : win0_4.index t (0 : Fin 2) = 0) (e1 : win0_4.index t (1 : Fin 2) = 0) :
    iblk0 V c 4 t (ix2 p k) = V c main_arg4 (ix2 p k) := by
  show V c main_arg4 (((cfg0.win 4).blk t).view.emb (ix2 p k)) = _
  refine congrArg (V c main_arg4) (funext fun a => Fin.ext ?_)
  match a with
  | ⟨0, _⟩ => show win0_4.index t (0 : Fin 2) * 128 + 1 * p.val = p.val; omega
  | ⟨1, _⟩ => show win0_4.index t (1 : Fin 2) * 128 + 1 * k.val = k.val; omega

/-! ## What a point writes back, and the whole array -/

/-- WHAT POINT t WRITES BACK is block t of `conv` of the arrays as the region finds them. -/
theorem flushed_eq (c : Dev nD) (t : Fin cfg0.N) :
    (dat0 V c).flushed 5 t = ((cfg0.win 5).blk t).view.read (Elt Ideal)
      (conv (V c main_v22) (V c main_arg0) (V c main_arg2) (V c main_arg4) (fun q => V c main_v23 (ix2 (0 : Fin 1) q))) := by
  show (cfg0.win 5).cut (grid0.coords t) ((dat0 V c).after 5 t) = _
  rw [after0_5]
  unfold out0_5
  rw [View.canon_unit_zero zero_corner]
  simp only [View.ld_unit_zero (S := S5000x128) zero_corner, View.ld_unit_zero (S := S128x128) zero_corner,
    View.ld_unit_zero (S := S1x128) zero_corner]
  obtain ⟨e00, e01, e10, e11, e20, e21, e30, e31, e40, e41, e50, e51⟩ := index_facts t
  have ht : t.val < 20 := Nat.lt_of_lt_of_eq t.isLt N_0
  funext j
  obtain ⟨p, q, rfl⟩ : ∃ (p : Fin 5000) (q : Fin 128), j = ix2 p q := ⟨j 0, j 1, eq_ix2 j⟩
  refine (stored_at (iblk0 V c 0 t) (iblk0 V c 1 t) (iblk0 V c 2 t) (iblk0 V c 4 t) (iblk0 V c 3 t) p q).trans ?_
  show _ = conv (V c main_v22) (V c main_arg0) (V c main_arg2) (V c main_arg4) (fun q => V c main_v23 (ix2 (0 : Fin 1) q))
    (((cfg0.win 5).blk t).view.emb (ix2 p q))
  have hrow : ((((cfg0.win 5).blk t).view.emb (ix2 p q)) 0).val = t.val * 5000 + p.val := by
    show win0_5.index t (0 : Fin 2) * 5000 + 1 * p.val = _; omega
  have hcol : ((((cfg0.win 5).blk t).view.emb (ix2 p q)) 1).val = q.val := by
    show win0_5.index t (1 : Fin 2) * 128 + 1 * q.val = _; omega
  rw [conv_eq_at _ _ _ _ _ _ (⟨t.val * 5000 + p.val, by have := p.isLt; omega⟩ : Fin 100000) q hrow hcol]
  unfold convAt
  refine congrArg₂ max (congrArg₂ (· + ·) (congrArg₂ (· + ·) (Finset.sum_congr rfl fun k _ => ?_) (Finset.sum_congr rfl fun k _ => ?_)) ?_) rfl
  · exact congrArg₂ (· * ·) (read_agg V c t p k ht e00 e01) (read_wl V c t k q e20 e21)
  · exact congrArg₂ (· * ·) (read_feat V c t p k ht e10 e11) (read_wr V c t k q e40 e41)
  · exact read_bias V c t (0 : Fin 1) q e30 e31

/-- An index of the output array is in point t's block iff each coordinate is in the block's range. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v24).slice (win0_5.rect t)).set ↔ _
  rw [View.set_slice_whole, Rect.mem_set_unit]
  exact Iff.rfl

/-- Every row of the output array lies in some point's block: row r in block r / 5000. -/
theorem covered (i : S100000x128.Idx) :
    ∃ t : Fin cfg0.N, (cfg0.win 5).flush t = true ∧ i ∈ ((cfg0.win 5).blk t).view.set := by
  have hi0 : (i 0).val < 100000 := idx2_lt0 i
  have hi1 : (i 1).val < 128 := idx2_lt1 i
  have ht : (i 0).val / 5000 < cfg0.N := by rw [show cfg0.N = 20 from N_0]; omega
  obtain ⟨e00, e01, e10, e11, e20, e21, e30, e31, e40, e41, e50, e51⟩ := index_facts ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- THE FIRST KERNEL'S OUTPUT ARRAY after its grid: `conv` of the arrays the region is entered with. -/
theorem hidden (c : Dev nD) :
    (dat0 V c).arrAt 5 cfg0.N
      = conv (V c main_v22) (V c main_arg0) (V c main_arg2) (V c main_arg4) (fun q => V c main_v23 (ix2 (0 : Fin 1) q)) :=
  (dat0 V c).arrAt_eq_of_cover 5 _ (fun t _ => flushed_eq V c t) covered

end Cert.KernelIdeal.Layer1

end
-- ==== Proof.Layer2Body.lean ====
/-
  What the second kernel writes at one element of its block.

  On a block of 5000 rows the kernel forms the second layer's hidden features exactly as the first
  kernel forms its output (two products accumulated from zero, added, the bias row added, the maximum
  with zero), multiplies them by the 128×2 head matrix — again a plain sum over the 128 channels — and
  adds the head's bias row.  Rounding to a shorter float format is the identity on the extended reals.
-/
import proofs.«157874_j14465449853061_1_alg».proof.Proof.Gen.KernelIdeal.Skeleton
import proofs.«157874_j14465449853061_1_alg».proof.Proof.Layer1Body

set_option maxRecDepth 16384

noncomputable section

namespace Cert.KernelIdeal.Layer2

open Cert.KernelIdeal Cert.KernelIdeal.Gen
open Idealize.ShloMosaic Idealize.ShloMosaic.ValueIdx
open scoped BigOperators

/-! ## The 5000×128 by 128×2 product: which elements meet -/

theorem lhs_row (i : S5000x2.Idx) (κ : dot_S5000x128_S128x2_S5000x2_1_0_0_1_n_n.contr.Idx) :
    (dot_S5000x128_S128x2_S5000x2_1_0_0_1_n_n.lhsIdx i κ 0).val = (i 0).val := by
  unfold DotDims.lhsIdx
  rw [dif_neg (show ¬(0 : Fin S5000x128.rank) ∈ dot_S5000x128_S128x2_S5000x2_1_0_0_1_n_n.lhsBatch by decide),
    dif_pos (show (0 : Fin S5000x128.rank) ∈ dot_S5000x128_S128x2_S5000x2_1_0_0_1_n_n.lhsNonContracting by decide)]
  rfl
theorem lhs_col (i : S5000x2.Idx) (κ : dot_S5000x128_S128x2_S5000x2_1_0_0_1_n_n.contr.Idx) :
    (dot_S5000x128_S128x2_S5000x2_1_0_0_1_n_n.lhsIdx i κ 1).val = (κ ⟨0, by decide⟩).val :=
  dot_S5000x128_S128x2_S5000x2_1_0_0_1_n_n.lhsIdx_val_of_single rfl i κ
theorem rhs_row (i : S5000x2.Idx) (κ : dot_S5000x128_S128x2_S5000x2_1_0_0_1_n_n.contr.Idx) :
    (dot_S5000x128_S128x2_S5000x2_1_0_0_1_n_n.rhsIdx i κ 0).val = (κ ⟨0, by decide⟩).val :=
  dot_S5000x128_S128x2_S5000x2_1_0_0_1_n_n.rhsIdx_val_of_single rfl i κ
theorem rhs_col (i : S5000x2.Idx) (κ : dot_S5000x128_S128x2_S5000x2_1_0_0_1_n_n.contr.Idx) :
    (dot_S5000x128_S128x2_S5000x2_1_0_0_1_n_n.rhsIdx i κ 1).val = (i 1).val := by
  unfold DotDims.rhsIdx
  rw [dif_neg (show ¬(1 : Fin S128x2.rank) ∈ dot_S5000x128_S128x2_S5000x2_1_0_0_1_n_n.rhsBatch by decide),
    dif_pos (show (1 : Fin S128x2.rank) ∈ dot_S5000x128_S128x2_S5000x2_1_0_0_1_n_n.rhsNonContracting by decide)]
  rfl

/-- A block times the head matrix, accumulated from zero, at row `p` and class `q`. -/
theorem product_at (a : FVec Ideal S5000x128 .bf16) (w : FVec Ideal S128x2 .bf16) (p : Fin 5000) (q : Fin 2) :
    matmul dot_S5000x128_S128x2_S5000x2_1_0_0_1_n_n none a w (constant S5000x2 .f32 0x00000000#32) (ix2 p q)
      = ∑ k : Fin 128, a (ix2 p k) * w (ix2 k q) := by
  refine (Ideal.matmul_constant_zero_apply dot_S5000x128_S128x2_S5000x2_1_0_0_1_n_n none a w (ix2 p q)).trans ?_
  rw [← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 p q) ((ValueIdx.contrEquiv1 dot_S5000x128_S128x2_S5000x2_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x2_S5000x2_1_0_0_1_n_n.rhsIdx (ix2 p q) ((ValueIdx.contrEquiv1 dot_S5000x128_S128x2_S5000x2_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- The head's bias row repeated down the block. -/
theorem bias_at (b : FVec Ideal S1x2 .f32) (p : Fin 5000) (q : Fin 2) :
    broadcastTo S5000x2 b broadcasts_S1x2_S5000x2 (ix2 p q) = b (ix2 (0 : Fin 1) q) :=
  broadcastTo_apply b broadcasts_S1x2_S5000x2 (ix2 p q) (ix2 (0 : Fin 1) q) (fun a => match a with
    | ⟨0, _⟩ => by show (0 : Nat) = if (1 : Nat) = 1 then 0 else p.val; rw [if_pos rfl]
    | ⟨1, _⟩ => by show q.val = if (2 : Nat) = 1 then 0 else q.val; rw [if_neg (by decide)])

/-- THE SECOND KERNEL'S STORED VALUE at row `p` and class `q` of its block, from the blocks it loads:
    the aggregated hidden rows `xa`, the hidden rows `xh`, the layer's two matrices and bias row, the
    head's matrix and bias row. -/
theorem stored_at (xa xh : FVec Ideal S5000x128 .f32) (wl wr : FVec Ideal S128x128 .f32) (b : FVec Ideal S1x128 .f32)
    (wo : FVec Ideal S128x2 .f32) (bo : FVec Ideal S1x2 .f32) (p : Fin 5000) (q : Fin 2) :
    k1_pay1 (F := Ideal) xa xh wl wr b wo bo (ix2 p q)
      = (∑ k : Fin 128,
            max (((∑ j : Fin 128, xa (ix2 p j) * wl (ix2 j k)) + (∑ j : Fin 128, xh (ix2 p j) * wr (ix2 j k))) + b (ix2 (0 : Fin 1) k))
              (Ideal.ofBits .f32 0x00000000#32) * wo (ix2 k q))
          + bo (ix2 (0 : Fin 1) q) := by
  unfold k1_pay1
  rw [addf_apply, product_at, bias_at, shapeCast_self bo shapeCasts_S1x2_S1x2, shapeCast_self xa shapeCasts_S5000x128_S5000x128,
    shapeCast_self xh shapeCasts_S5000x128_S5000x128, shapeCast_self b shapeCasts_S1x128_S1x128]
  refine congrArg₂ (· + ·) (Finset.sum_congr rfl fun k _ => congrArg₂ (· * ·) ?_ rfl) rfl
  rw [truncf_apply, maximumf_apply, addf_apply, addf_apply, Layer1.product_at, Layer1.product_at, Layer1.bias_at]
  rfl

end Cert.KernelIdeal.Layer2

end
-- ==== Proof.Layer2Array.lean ====
/-
  The second kernel's output array is the head of one convolution layer of the arrays it is launched on.

  As in the first region the grid has 20 points and point t works on rows 5000·t … 5000·t+4999 of its
  two row-blocked inputs (the aggregated hidden features and the hidden features) and of the output,
  and on the whole of the layer's two matrices and bias row and of the head's matrix and bias row.  The
  hidden features of the second layer never leave the block: the kernel feeds them to the head at once.
  Since the head at row r only reads the layer's row r, what point t writes back is still block t of ONE
  array, `head (conv …)` of the seven input arrays; the 20 blocks tile the 100000 rows.
-/
import proofs.«157874_j14465449853061_1_alg».proof.Proof.Gen.KernelIdeal.Frame
import proofs.«157874_j14465449853061_1_alg».proof.Proof.Layers
import proofs.«157874_j14465449853061_1_alg».proof.Proof.Layer2Body

set_option maxRecDepth 16384

noncomputable section

namespace Cert.KernelIdeal.Layer2

open Cert.KernelIdeal Cert.KernelIdeal.Gen Cert.Sage
open Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

theorem zero_corner : (![0, 0] : Fin 2 → Nat) = fun _ => 0 := funext fun a => by fin_cases a <;> rfl

/-- The index maps over the grid: the row-blocked windows (aggregated hidden features, hidden features,
    output) are at block t at point t, the other five at their only block. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## What each loaded block holds -/

/-- Row p of the aggregated-hidden-features block at point t is row 5000·t+p of the array. -/
theorem read_agg (c : Dev nD) (t : Fin cfg1.N) (p : Fin 5000) (k : Fin 128) (ht : t.val < 20)
    (e0 : win1_0.index t (0 : Fin 2) = t.val) (e1 : win1_0.index t (1 : Fin 2) = 0) :
    iblk1 V c 0 t (ix2 p k) = V c main_v43 (ix2 (⟨t.val * 5000 + p.val, by have := p.isLt; omega⟩ : Fin 100000) k) := by
  show V c main_v43 (((cfg1.win 0).blk t).view.emb (ix2 p k)) = _
  refine congrArg (V c main_v43) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Row p of the hidden-features block at point t is row 5000·t+p of the array. -/
theorem read_hid (c : Dev nD) (t : Fin cfg1.N) (p : Fin 5000) (k : Fin 128) (ht : t.val < 20)
    (e0 : win1_1.index t (0 : Fin 2) = t.val) (e1 : win1_1.index t (1 : Fin 2) = 0) :
    iblk1 V c 1 t (ix2 p k) = V c main_v24 (ix2 (⟨t.val * 5000 + p.val, by have := p.isLt; omega⟩ : Fin 100000) k) := by
  show V c main_v24 (((cfg1.win 1).blk t).view.emb (ix2 p k)) = _
  refine congrArg (V c main_v24) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The layer's first weight matrix is loaded whole at every point. -/
theorem read_wl (c : Dev nD) (t : Fin cfg1.N) (p : Fin 128) (k : Fin 128)
    (e0 : win1_2.index t (0 : Fin 2) = 0) (e1 : win1_2.index t (1 : Fin 2) = 0) :
    iblk1 V c 2 t (ix2 p k) = V c main_arg5 (ix2 p k) := by
  show V c main_arg5 (((cfg1.win 2).blk t).view.emb (ix2 p k)) = _
  refine congrArg (V c main_arg5) (funext fun a => Fin.ext ?_)
  match a with
  | ⟨0, _⟩ => show win1_2.index t (0 : Fin 2) * 128 + 1 * p.val = p.val; omega
  | ⟨1, _⟩ => show win1_2.index t (1 : Fin 2) * 128 + 1 * k.val = k.val; omega

/-- The layer's bias row is loaded whole at every point. -/
theorem read_bias (c : Dev nD) (t : Fin cfg1.N) (p : Fin 1) (k : Fin 128)
    (e0 : win1_3.index t (0 : Fin 2) = 0) (e1 : win1_3.index t (1 : Fin 2) = 0) :
    iblk1 V c 3 t (ix2 p k) = V c main_v44 (ix2 p k) := by
  show V c main_v44 (((cfg1.win 3).blk t).view.emb (ix2 p k)) = _
  refine congrArg (V c main_v44) (funext fun a => Fin.ext ?_)
  match a with
  | ⟨0, _⟩ => show win1_3.index t (0 : Fin 2) * 1 + 1 * p.val = p.val; omega
  | ⟨1, _⟩ => show win1_3.index t (1 : Fin 2) * 128 + 1 * k.val = k.val; omega

/-- The layer's second weight matrix is loaded whole at every point. -/
theorem read_wr (c : Dev nD) (t : Fin cfg1.N) (p : Fin 128) (k : Fin 128)
    (e0 : win1_4.index t (0 : Fin 2) = 0) (e1 : win1_4.index t (1 : Fin 2) = 0) :
    iblk1 V c 4 t (ix2 p k) = V c main_arg7 (ix2 p k) := by
  show V c main_arg7 (((cfg1.win 4).blk t).view.emb (ix2 p k)) = _
  refine congrArg (V c main_arg7) (funext fun a => Fin.ext ?_)
  match a with
  | ⟨0, _⟩ => show win1_4.index t (0 : Fin 2) * 128 + 1 * p.val = p.val; omega
  | ⟨1, _⟩ => show win1_4.index t (1 : Fin 2) * 128 + 1 * k.val = k.val; omega

/-- The head's matrix is loaded whole at every point. -/
theorem read_whead (c : Dev nD) (t : Fin cfg1.N) (p : Fin 128) (k : Fin 2)
    (e0 : win1_5.index t (0 : Fin 2) = 0) (e1 : win1_5.index t (1 : Fin 2) = 0) :
    iblk1 V c 5 t (ix2 p k) = V c main_arg8 (ix2 p k) := by
  show V c main_arg8 (((cfg1.win 5).blk t).view.emb (ix2 p k)) = _
  refine congrArg (V c main_arg8) (funext fun a => Fin.ext ?_)
  match a with
  | ⟨0, _⟩ => show win1_5.index t (0 : Fin 2) * 128 + 1 * p.val = p.val; omega
  | ⟨1, _⟩ => show win1_5.index t (1 : Fin 2) * 2 + 1 * k.val = k.val; omega

/-- The head's bias row is loaded whole at every point. -/
theorem read_bhead (c : Dev nD) (t : Fin cfg1.N) (p : Fin 1) (k : Fin 2)
    (e0 : win1_6.index t (0 : Fin 2) = 0) (e1 : win1_6.index t (1 : Fin 2) = 0) :
    iblk1 V c 6 t (ix2 p k) = V c main_v45 (ix2 p k) := by
  show V c main_v45 (((cfg1.win 6).blk t).view.emb (ix2 p k)) = _
  refine congrArg (V c main_v45) (funext fun a => Fin.ext ?_)
  match a with
  | ⟨0, _⟩ => show win1_6.index t (0 : Fin 2) * 1 + 1 * p.val = p.val; omega
  | ⟨1, _⟩ => show win1_6.index t (1 : Fin 2) * 2 + 1 * k.val = k.val; omega

/-! ## What a point writes back, and the whole array -/

/-- WHAT POINT t WRITES BACK is block t of `head (conv …)` of the arrays as the region finds them. -/
theorem flushed_eq (c : Dev nD) (t : Fin cfg1.N) :
    (dat1 V c).flushed 7 t = ((cfg1.win 7).blk t).view.read (Elt Ideal) (head (conv (V c main_v43) (V c main_v24) (V c main_arg5) (V c main_arg7) (fun q => V c main_v44 (ix2 (0 : Fin 1) q))) (V c main_arg8) (fun q => V c main_v45 (ix2 (0 : Fin 1) q))) := by
  show (cfg1.win 7).cut (grid1.coords t) ((dat1 V c).after 7 t) = _
  rw [after1_7]
  unfold out1_7
  rw [View.canon_unit_zero zero_corner]
  simp only [View.ld_unit_zero (S := S5000x128) zero_corner, View.ld_unit_zero (S := S128x128) zero_corner,
    View.ld_unit_zero (S := S1x128) zero_corner, View.ld_unit_zero (S := S128x2) zero_corner, View.ld_unit_zero (S := S1x2) zero_corner]
  obtain ⟨e00, e01, e10, e11, e20, e21, e30, e31, e40, e41, e50, e51, e60, e61, e70, e71⟩ := index_facts t
  have ht : t.val < 20 := Nat.lt_of_lt_of_eq t.isLt N_1
  funext j
  obtain ⟨p, q, rfl⟩ : ∃ (p : Fin 5000) (q : Fin 2), j = ix2 p q := ⟨j 0, j 1, eq_ix2 j⟩
  refine (stored_at (iblk1 V c 0 t) (iblk1 V c 1 t) (iblk1 V c 2 t) (iblk1 V c 4 t) (iblk1 V c 3 t) (iblk1 V c 5 t) (iblk1 V c 6 t) p q).trans ?_
  show _ = (head (conv (V c main_v43) (V c main_v24) (V c main_arg5) (V c main_arg7) (fun q => V c main_v44 (ix2 (0 : Fin 1) q))) (V c main_arg8) (fun q => V c main_v45 (ix2 (0 : Fin 1) q))) (((cfg1.win 7).blk t).view.emb (ix2 p q))
  have hrow : ((((cfg1.win 7).blk t).view.emb (ix2 p q)) 0).val = t.val * 5000 + p.val := by
    show win1_7.index t (0 : Fin 2) * 5000 + 1 * p.val = _; omega
  have hcol : ((((cfg1.win 7).blk t).view.emb (ix2 p q)) 1).val = q.val := by
    show win1_7.index t (1 : Fin 2) * 2 + 1 * q.val = _; omega
  rw [head_eq_at _ _ _ _ (⟨t.val * 5000 + p.val, by have := p.isLt; omega⟩ : Fin 100000) q hrow hcol]
  unfold headAt
  refine congrArg₂ (· + ·) (Finset.sum_congr rfl fun k _ => congrArg₂ (· * ·) ?_ ?_) ?_
  · rw [conv_eq_at _ _ _ _ _ (ix2 (⟨t.val * 5000 + p.val, by have := p.isLt; omega⟩ : Fin 100000) k)
      (⟨t.val * 5000 + p.val, by have := p.isLt; omega⟩ : Fin 100000) k rfl rfl]
    unfold convAt
    refine congrArg₂ max (congrArg₂ (· + ·) (congrArg₂ (· + ·) (Finset.sum_congr rfl fun j _ => ?_) (Finset.sum_congr rfl fun j _ => ?_)) ?_) rfl
    · exact congrArg₂ (· * ·) (read_agg V c t p j ht e00 e01) (read_wl V c t j k e20 e21)
    · exact congrArg₂ (· * ·) (read_hid V c t p j ht e10 e11) (read_wr V c t j k e40 e41)
    · exact read_bias V c t (0 : Fin 1) k e30 e31
  · exact read_whead V c t k q e50 e51
  · exact read_bhead V c t (0 : Fin 1) q e60 e61

/-- An index of the output array is in point t's block iff each coordinate is in the block's range. -/
theorem mem_blk (t : Fin cfg1.N) (i : S100000x2.Idx) :
    i ∈ ((cfg1.win 7).blk t).view.set ↔ ∀ a : Fin 2, win1_7.index t a * S5000x2.size a ≤ (i a).val
      ∧ (i a).val < win1_7.index t a * S5000x2.size a + S5000x2.size a := by
  show i ∈ ((View.whole main_v46).slice (win1_7.rect t)).set ↔ _
  rw [View.set_slice_whole, Rect.mem_set_unit]
  exact Iff.rfl

/-- Every row of the output array lies in some point's block: row r in block r / 5000. -/
theorem covered (i : S100000x2.Idx) :
    ∃ t : Fin cfg1.N, (cfg1.win 7).flush t = true ∧ i ∈ ((cfg1.win 7).blk t).view.set := by
  have hi0 : (i 0).val < 100000 := idx2_lt0 i
  have hi1 : (i 1).val < 2 := idx2_lt1 i
  have ht : (i 0).val / 5000 < cfg1.N := by rw [show cfg1.N = 20 from N_1]; omega
  obtain ⟨e00, e01, e10, e11, e20, e21, e30, e31, e40, e41, e50, e51, e60, e61, e70, e71⟩ := index_facts ⟨(i 0).val / 5000, ht⟩
  have e70' : win1_7.index ⟨(i 0).val / 5000, ht⟩ (0 : Fin 2) = (i 0).val / 5000 := e70
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    omega
  | ⟨1, _⟩ =>
    show win1_7.index ⟨(i 0).val / 5000, ht⟩ (1 : Fin 2) * 2 ≤ (i 1).val
      ∧ (i 1).val < win1_7.index ⟨(i 0).val / 5000, ht⟩ (1 : Fin 2) * 2 + 2
    omega

/-- THE SECOND KERNEL'S OUTPUT ARRAY after its grid: the head of `conv` of the arrays the region is entered with. -/
theorem logits (c : Dev nD) :
    (dat1 V c).arrAt 7 cfg1.N = head (conv (V c main_v43) (V c main_v24) (V c main_arg5) (V c main_arg7) (fun q => V c main_v44 (ix2 (0 : Fin 1) q))) (V c main_arg8) (fun q => V c main_v45 (ix2 (0 : Fin 1) q)) :=
  (dat1 V c).arrAt_eq_of_cover 7 _ (fun t _ => flushed_eq V c t) covered

end Cert.KernelIdeal.Layer2

end
-- ==== Proof.Boundaries.lean ====
/-
  What each kernel region finds in its arrays.

  Before the first region the host averages the input features over the edges and reshapes the first
  bias to a row; the region's other arrays are arguments as launched.  Between the regions the host
  averages the first region's output over the same edges (the source and target lists computed before
  the first region are still in place, no region writes them) and reshapes the second layer's bias and
  the head's bias to rows; the weights are arguments as launched, and the first region's output is what
  the region left.  A reshape of n numbers to one row of n reads its only row's entry q at entry q.
-/
import proofs.«157874_j14465449853061_1_alg».proof.Proof.Gen.KernelIdeal.Frame
import proofs.«157874_j14465449853061_1_alg».proof.Proof.Aggregate
import Idealize.ShloMosaic.Lib.StableHlo.Run
import Idealize.ShloMosaic.Lib.Pipeline.Value
import Idealize.ShloMosaic.Lib.ValueIdx

set_option maxRecDepth 16384

noncomputable section

namespace Cert.KernelIdeal.Entry

open Cert.KernelIdeal Cert.KernelIdeal.Gen Cert.Sage
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- A reshape of `n` numbers to one row of `n`, read at the row's entry `q`. -/
theorem row_of {n : Nat} {α : Type} (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  (shapeCast_addUnit_apply ![n] v h (ix2 (0 : Fin 1) q)).trans
    (congrArg v (funext fun a => by match a with | ⟨0, _⟩ => rfl))

/-! ## The first region's arrays -/

set_option maxHeartbeats 8000000 in
/-- The aggregated input features. -/
theorem agg1 (c : Dev nD) : (V1 m ρ c main_v22 : S100000x128.Idx → EReal) = meanAgg (m ((c : Thread nD τ).loc main_arg1)) (m ((c : Thread nD τ).loc main_arg0)) := by
  dsimp only [V1, W1, hostOps0]
  after_results_simp
  rfl

set_option maxHeartbeats 8000000 in
theorem feat1 (c : Dev nD) : V1 m ρ c main_arg0 = (m ((c : Thread nD τ).loc main_arg0)) := by
  dsimp only [V1, W1, hostOps0]
  after_results_simp
  try rfl

set_option maxHeartbeats 8000000 in
theorem wl1 (c : Dev nD) : V1 m ρ c main_arg2 = (m ((c : Thread nD τ).loc main_arg2)) := by
  dsimp only [V1, W1, hostOps0]
  after_results_simp
  try rfl

set_option maxHeartbeats 8000000 in
theorem wr1 (c : Dev nD) : V1 m ρ c main_arg4 = (m ((c : Thread nD τ).loc main_arg4)) := by
  dsimp only [V1, W1, hostOps0]
  after_results_simp
  try rfl

set_option maxHeartbeats 8000000 in
/-- The first bias, as the row the region loads. -/
theorem bias1 (c : Dev nD) (q : Fin 128) : V1 m ρ c main_v23 (ix2 (0 : Fin 1) q) = (m ((c : Thread nD τ).loc main_arg3)) (ix1 q) := by
  have e : (V1 m ρ c main_v23 : S1x128.Idx → EReal)
      = shapeCast S1x128 ((m ((c : Thread nD τ).loc main_arg3)) : S128.Idx → EReal) shapeCasts_S128_S1x128 := by
    dsimp only [V1, W1, hostOps0]
    after_results_simp
    try rfl
  rw [e]
  exact row_of _ shapeCasts_S128_S1x128 q

/-! ## The second region's arrays -/

set_option maxHeartbeats 16000000 in
/-- The aggregated hidden features: the same averaging over the same edges, of what the first region left. -/
theorem agg2 (c : Dev nD) : (V3 m ρ c main_v43 : S100000x128.Idx → EReal)
    = meanAgg (m ((c : Thread nD τ).loc main_arg1)) (W2 m ρ c (Proc.devRef .tc main_v24)) := by
  dsimp only [V3, W3, hostOps1]
  after_results_simp
  rw [W2_of_ne m ρ c main_v1 (by decide), W2_of_ne m ρ c main_v3 (by decide)]
  dsimp only [W1, hostOps0]
  after_results_simp
  rfl

set_option maxHeartbeats 8000000 in
/-- The hidden features: what the first region left. -/
theorem hid2 (c : Dev nD) : V3 m ρ c main_v24 = W2 m ρ c (Proc.devRef .tc main_v24) := by
  dsimp only [V3, W3, hostOps1]
  after_results_simp
  try rfl

set_option maxHeartbeats 8000000 in
theorem wl2 (c : Dev nD) : V3 m ρ c main_arg5 = (m ((c : Thread nD τ).loc main_arg5)) := by
  dsimp only [V3, W3, hostOps1]
  after_results_simp
  rw [W2_of_ne m ρ c main_arg5 (by decide)]
  dsimp only [W1, hostOps0]
  after_results_simp
  try rfl

set_option maxHeartbeats 8000000 in
theorem wr2 (c : Dev nD) : V3 m ρ c main_arg7 = (m ((c : Thread nD τ).loc main_arg7)) := by
  dsimp only [V3, W3, hostOps1]
  after_results_simp
  rw [W2_of_ne m ρ c main_arg7 (by decide)]
  dsimp only [W1, hostOps0]
  after_results_simp
  try rfl

set_option maxHeartbeats 8000000 in
theorem whead (c : Dev nD) : V3 m ρ c main_arg8 = (m ((c : Thread nD τ).loc main_arg8)) := by
  dsimp only [V3, W3, hostOps1]
  after_results_simp
  rw [W2_of_ne m ρ c main_arg8 (by decide)]
  dsimp only [W1, hostOps0]
  after_results_simp
  try rfl

set_option maxHeartbeats 8000000 in
/-- The second bias, as the row the region loads. -/
theorem bias2 (c : Dev nD) (q : Fin 128) : V3 m ρ c main_v44 (ix2 (0 : Fin 1) q) = (m ((c : Thread nD τ).loc main_arg6)) (ix1 q) := by
  have e : (V3 m ρ c main_v44 : S1x128.Idx → EReal)
      = shapeCast S1x128 ((m ((c : Thread nD τ).loc main_arg6)) : S128.Idx → EReal) shapeCasts_S128_S1x128 := by
    dsimp only [V3, W3, hostOps1]
    after_results_simp
    rw [W2_of_ne m ρ c main_arg6 (by decide)]
    dsimp only [W1, hostOps0]
    after_results_simp
    try rfl
  rw [e]
  exact row_of _ shapeCasts_S128_S1x128 q

set_option maxHeartbeats 8000000 in
/-- The head's bias, as the row the region loads. -/
theorem bhead (c : Dev nD) (q : Fin 2) : V3 m ρ c main_v45 (ix2 (0 : Fin 1) q) = (m ((c : Thread nD τ).loc main_arg9)) (ix1 q) := by
  have e : (V3 m ρ c main_v45 : S1x2.Idx → EReal)
      = shapeCast S1x2 ((m ((c : Thread nD τ).loc main_arg9)) : S2.Idx → EReal) shapeCasts_S2_S1x2 := by
    dsimp only [V3, W3, hostOps1]
    after_results_simp
    rw [W2_of_ne m ρ c main_arg9 (by decide)]
    dsimp only [W1, hostOps0]
    after_results_simp
    try rfl
  rw [e]
  exact row_of _ shapeCasts_S2_S1x2 q

end Cert.KernelIdeal.Entry

end
-- ==== Proof.KernelNet.lean ====
/-
  The kernel program computes the network.

  Following the run through its four segments: the first region is entered with the averaged input
  features, the input features, the first layer's weights and its bias as a row, so it leaves the first
  layer's output `h`; the second region is entered with the average of `h` over the same edges, with
  `h`, the second layer's weights and bias row and the head's matrix and bias row, so it leaves
  `head (conv (agg h) h …)` — the network of the ten arguments — in the result buffer.  No host
  operation and no region writes an argument.
-/
import proofs.«157874_j14465449853061_1_alg».proof.Proof.WholeRun
import proofs.«157874_j14465449853061_1_alg».proof.Proof.Layer1Array
import proofs.«157874_j14465449853061_1_alg».proof.Proof.Layer2Array
import proofs.«157874_j14465449853061_1_alg».proof.Proof.Boundaries

set_option maxRecDepth 16384

noncomputable section

namespace Cert.KernelIdeal.Net

open Cert.KernelIdeal Cert.KernelIdeal.Gen Cert.Sage
open Idealize.ShloMosaic Idealize.ShloMosaic.ValueIdx Idealize.ShloMosaic.TcCoe Idealize.SL.Sem

variable (m : (ℓ : Loc nD τ sig) → Buf (Elt Ideal) ℓ) (ρ : Dev nD → PrngReg)

/-- What the first region leaves in its output array: the first layer's output. -/
theorem hidden_eq (c : Dev nD) :
    W2 m ρ c (Proc.devRef .tc main_v24) = conv (meanAgg (m ((c : Thread nD τ).loc main_arg1)) (m ((c : Thread nD τ).loc main_arg0))) (m ((c : Thread nD τ).loc main_arg0)) (m ((c : Thread nD τ).loc main_arg2)) (m ((c : Thread nD τ).loc main_arg4)) (fun q => (m ((c : Thread nD τ).loc main_arg3)) (ix1 q)) := by
  refine (W2_arr m ρ c 5).trans ((Layer1.hidden (V1 m ρ) c).trans ?_)
  rw [Entry.agg1 m ρ c, Entry.feat1 m ρ c, Entry.wl1 m ρ c, Entry.wr1 m ρ c,
    show (fun q : Fin 128 => V1 m ρ c main_v23 (ix2 (0 : Fin 1) q)) = (fun q => (m ((c : Thread nD τ).loc main_arg3)) (ix1 q))
      from funext fun q => Entry.bias1 m ρ c q]

/-- What the second region leaves in the result buffer: the network of the arguments. -/
theorem result_eq (c : Dev nD) :
    W4 m ρ c (Proc.devRef .tc main_v46) = net (meanAgg (m ((c : Thread nD τ).loc main_arg1))) (m ((c : Thread nD τ).loc main_arg0)) (m ((c : Thread nD τ).loc main_arg2)) (fun q => (m ((c : Thread nD τ).loc main_arg3)) (ix1 q)) (m ((c : Thread nD τ).loc main_arg4)) (m ((c : Thread nD τ).loc main_arg5)) (fun q => (m ((c : Thread nD τ).loc main_arg6)) (ix1 q)) (m ((c : Thread nD τ).loc main_arg7)) (m ((c : Thread nD τ).loc main_arg8)) (fun q => (m ((c : Thread nD τ).loc main_arg9)) (ix1 q)) := by
  refine (W4_arr m ρ c 7).trans ((Layer2.logits (V3 m ρ) c).trans ?_)
  rw [Entry.agg2 m ρ c, Entry.hid2 m ρ c, Entry.wl2 m ρ c, Entry.wr2 m ρ c, Entry.whead m ρ c,
    show (fun q : Fin 128 => V3 m ρ c main_v44 (ix2 (0 : Fin 1) q)) = (fun q => (m ((c : Thread nD τ).loc main_arg6)) (ix1 q))
      from funext fun q => Entry.bias2 m ρ c q,
    show (fun q : Fin 2 => V3 m ρ c main_v45 (ix2 (0 : Fin 1) q)) = (fun q => (m ((c : Thread nD τ).loc main_arg9)) (ix1 q))
      from funext fun q => Entry.bhead m ρ c q,
    hidden_eq m ρ c]
  rfl

/-- THE KERNEL PROGRAM'S RUN: every weakly fair execution terminates without a fault, the result buffer
    holding the network of the arguments and the arguments as launched. -/
theorem run : θ_run defs (onTc (τ := τ) (main (F := Ideal))) ⟨m, fun _ => 0, ρ⟩ (fun r => ∀ c : Dev nD,
      r.2.mem ((c.tc : Thread nD τ).loc main_v46) = net (meanAgg (m ((c : Thread nD τ).loc main_arg1))) (m ((c : Thread nD τ).loc main_arg0)) (m ((c : Thread nD τ).loc main_arg2)) (fun q => (m ((c : Thread nD τ).loc main_arg3)) (ix1 q)) (m ((c : Thread nD τ).loc main_arg4)) (m ((c : Thread nD τ).loc main_arg5)) (fun q => (m ((c : Thread nD τ).loc main_arg6)) (ix1 q)) (m ((c : Thread nD τ).loc main_arg7)) (m ((c : Thread nD τ).loc main_arg8)) (fun q => (m ((c : Thread nD τ).loc main_arg9)) (ix1 q))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_v46 (by decide))).trans (result_eq m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c)⟩)
    (Whole.run_all m ρ)

end Cert.KernelIdeal.Net

end
-- ==== Proof.lean ====
/-
  A two-layer graph network with a linear head: the kernel program against its reference.

  Both programs average each node's incoming neighbours' features on the host (the same gather, the
  same two scatter-additions, the same division by the in-degree or one), apply a layer
  max(A·Wl + X·Wr + b, 0) twice — the second time to the first layer's output and its average — and
  finish with a linear head H·W + b.  The kernel program computes each layer in a kernel over 20 blocks
  of 5000 rows, rounding operands to a shorter float format on the way into each product, and fuses the
  head into the second kernel; the reference uses whole-array products.  On the extended reals the
  roundings are the identity, a product accumulated from zero is the plain sum, and a row of a blockwise
  product is the row of the whole product, so the two programs' results are the same function of the
  arguments (`Cert.Sage.net`), index by index; the sums are grouped alike on both sides, so no law of
  arithmetic is used and the inputs' finiteness is never needed.

  The three frames: the kernel programs' are the generated frame certificates; the reference's is its
  generated run with the result dropped.  The idealization rewrote nothing, so it preserves trivially.
-/
import proofs.«157874_j14465449853061_1_alg».proof.Defs
import proofs.«157874_j14465449853061_1_alg».proof.Proof.Gen.Kernel
import proofs.«157874_j14465449853061_1_alg».proof.Proof.Gen.Kernel.Skeleton
import proofs.«157874_j14465449853061_1_alg».proof.Proof.Gen.Kernel.Launch
import proofs.«157874_j14465449853061_1_alg».proof.Proof.Gen.Kernel.Points
import proofs.«157874_j14465449853061_1_alg».proof.Proof.Gen.Kernel.Frame
import proofs.«157874_j14465449853061_1_alg».proof.Proof.Gen.KernelIdeal
import proofs.«157874_j14465449853061_1_alg».proof.Proof.Gen.KernelIdeal.Skeleton
import proofs.«157874_j14465449853061_1_alg».proof.Proof.Gen.KernelIdeal.Launch
import proofs.«157874_j14465449853061_1_alg».proof.Proof.Gen.KernelIdeal.Points
import proofs.«157874_j14465449853061_1_alg».proof.Proof.Gen.KernelIdeal.Frame
import proofs.«157874_j14465449853061_1_alg».proof.Proof.Gen.ReferenceIdeal
import proofs.«157874_j14465449853061_1_alg».proof.Proof.Gen.Pre_finite_inputs
import proofs.«157874_j14465449853061_1_alg».proof.Proof.Gen.ReferenceIdeal.Run
import proofs.«157874_j14465449853061_1_alg».proof.Proof.Gen.ReferenceIdeal.Read
import proofs.«157874_j14465449853061_1_alg».proof.Proof.RefNet
import proofs.«157874_j14465449853061_1_alg».proof.Proof.KernelNet
import Idealize.ShloMosaic.Adequacy
import Idealize.ShloMosaic.Init

set_option maxRecDepth 16384

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

theorem frame_reference_ideal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the network of the arguments in their result buffers. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Sage.net (Cert.Sage.meanAgg (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (fun q => (m ((c.tc : Thread Cert.KernelIdeal.nD Cert.KernelIdeal.τ).loc Cert.KernelIdeal.main_arg3)) (ValueIdx.ix1 q)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (fun q => (m ((c.tc : Thread Cert.KernelIdeal.nD Cert.KernelIdeal.τ).loc Cert.KernelIdeal.main_arg6)) (ValueIdx.ix1 q)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (fun q => (m ((c.tc : Thread Cert.KernelIdeal.nD Cert.KernelIdeal.τ).loc Cert.KernelIdeal.main_arg9)) (ValueIdx.ix1 q)), Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v59_eq, Cert.ReferenceIdeal.Net.result, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
